-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x256 .f32) (main_arg1 : FVec F S4096x4096 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S4096x4096 : Shape := ⟨2, ![4096, 4096]⟩
abbrev S512x4096 : Shape := ⟨2, ![512, 4096]⟩
abbrev S256x256 : Shape := ⟨2, ![256, 256]⟩
abbrev S256x4096 : Shape := ⟨2, ![256, 4096]⟩

abbrev nBuf : Space → Nat
  | .hbm => 4
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S4096x256, .f32⟩
  | .local _ .vmem, ⟨3, _⟩ => ⟨S4096x256, .f32⟩
  | .local _ .vmem, ⟨4, _⟩ => ⟨S256x256, .f32⟩
  | .local _ .vmem, ⟨5, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : Index := Scalar.indexCast v0
  let c0 : Index := 0#32
  ![v1.toNat, 0]
def k0_off2 (i : grid0.Coords) : Fin 2 → Nat :=
  let arg0 : BitVec 32 := BitVec.ofNat 32 (i 0).val
  let c512_i32 : BitVec 32 := 512#32
  let v7 : BitVec 32 := Scalar.muli arg0 c512_i32
  let arg1 : BitVec 32 := BitVec.ofNat 32 (i 1).val
  let c256_i32_3 : BitVec 32 := 256#32
  let v8 : BitVec 32 := Scalar.muli arg1 c256_i32_3
  let v9 : BitVec 32 := Scalar.addi v7 v8
  let v10 : Index := Scalar.indexCast v9
  let c0_4 : Index := 0#32
  ![v10.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  h_S256x4096 : 0 < S256x4096.numel
  inb_S4096x256_S4096x256_0_0 : ∀ a, (![0, 0] : Fin 2 → Nat) a + S4096x256.size a ≤ S4096x256.size a
  h_S4096x256 : 0 < S4096x256.numel
  h_S256x256 : 0 < S256x256.numel
  inb_S256x256_S256x256_0_0 : ∀ a, (![0, 0] : Fin 2 → Nat) a + S256x256.size a ≤ S256x256.size a
  dot_S256x4096_S4096x256_S256x256_1_0_0_1_n_n_wf : DotDims.WF S256x4096 S4096x256 S256x256 [1] [0] [0] [1] [] []
  hrank0 : 0 < grid0.rank
  k0_off1_inb : ∀ i : grid0.Coords, ∀ a, (k0_off1 i) a + S256x4096.size a ≤ S512x4096.size a
  k0_off2_inb : ∀ i : grid0.Coords, ∀ a, (k0_off2 i) a + S256x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .f32 = 32 ∨ (Rect.block (s := S4096x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S4096x256.size a
  hwx0_3 : ∀ i : grid0.Coords, EltTy.bits .f32 = 32 ∨ (Rect.block (s := S4096x256) S256x256.size (cc0_transform_3 i) (hinb0_3 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096x256, .f32⟩
  | .hbm, ⟨6, _⟩ => ⟨S4096x256, .f32⟩
  | .hbm, ⟨7, _⟩ => ⟨S_, .f32⟩
  | .hbm, ⟨8, _⟩ => ⟨S4096x256, .f32⟩
  | .hbm, ⟨9, _⟩ => ⟨S4096x256, .f32⟩
  | .hbm, ⟨10, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Spec.lean ====
/-
  One propagation step over a dense graph, as a function on the extended reals.

  For node features x (4096 nodes, 256 channels), a dense adjacency matrix adj (4096 by 4096) and a residual h (the
  shape of x), the step mixes each node's neighbourhood sum with its residual:

      step(x, adj, h)[r, c]  =  κ · ( Σ_{k < 4096} adj[r, k] · x[k, c] )  +  μ · h[r, c]

  where κ and μ are the binary32 numbers nearest 9/10 and 1/10. They are kept as their bit patterns: both programs carry
  the same two words in the same places, so their values are never needed, and no law of the extended reals beyond
  reading both sides at an entry is used (in particular nothing that would ask the inputs to be finite).
-/
import Idealize.ShloMosaic.PureOps.Ideal
import Idealize.ShloMosaic.Lib.ValueIdx

noncomputable section

open scoped BigOperators

namespace Cert.Propagate

open Idealize.ShloMosaic Idealize.ShloMosaic.ValueIdx

/-- The weight of the neighbourhood sum: the binary32 number nearest 9/10, by its bit pattern. -/
abbrev keep : EReal := Ideal.ofBits .f32 0x3F666666#32

/-- The weight of the residual: the binary32 number nearest 1/10, by its bit pattern. -/
abbrev mix : EReal := Ideal.ofBits .f32 0x3DCCCCCD#32

/-- Row `r`, column `c` of the step: row `r` of the adjacency against column `c` of the features, weighted, plus the
    weighted residual at `(r, c)`. -/
def entry (x : (⟨2, ![4096, 256]⟩ : Shape).Idx → EReal) (adj : (⟨2, ![4096, 4096]⟩ : Shape).Idx → EReal)
    (h : (⟨2, ![4096, 256]⟩ : Shape).Idx → EReal) (r : Fin 4096) (c : Fin 256) : EReal :=
  keep * (∑ k : Fin 4096, adj (ix2 r k) * x (ix2 k c)) + mix * h (ix2 r c)

/-- The step as a whole array: at every index, the entry at the index's row and column. -/
def step (x : (⟨2, ![4096, 256]⟩ : Shape).Idx → EReal) (adj : (⟨2, ![4096, 4096]⟩ : Shape).Idx → EReal)
    (h : (⟨2, ![4096, 256]⟩ : Shape).Idx → EReal) : (⟨2, ![4096, 256]⟩ : Shape).Idx → EReal :=
  fun i => entry x adj h (i 0) (i 1)

/-- The step at an index given by its coordinates. -/
theorem step_ix2 (x : (⟨2, ![4096, 256]⟩ : Shape).Idx → EReal) (adj : (⟨2, ![4096, 4096]⟩ : Shape).Idx → EReal)
    (h : (⟨2, ![4096, 256]⟩ : Shape).Idx → EReal) (r : Fin 4096) (c : Fin 256) :
    step x adj h (ix2 r c) = entry x adj h r c := rfl

end Cert.Propagate

end
-- ==== Proof.RefSide.lean ====
/-
  The reference computes the propagation step.

  The reference is one whole matrix product adj · x followed by the two scalings and the sum, each on whole arrays.
  Read at the entry (r, c): the product is Σ_k adj[r, k] · x[k, c] (the contraction runs over the adjacency's columns and
  the features' rows), each broadcast scalar is its one word, and the product, the scalings and the sum are the extended
  reals' own. That is the step's entry, term for term.
-/
import proofs.«101471_g1228360646954_cont_fleet_178_26_alg».proof.Proof.Gen.ReferenceIdeal.Read
import proofs.«101471_g1228360646954_cont_fleet_178_26_alg».proof.Proof.Spec

noncomputable section

open scoped BigOperators

namespace Cert.Propagate.Reference

open Idealize.ShloMosaic Idealize.ShloMosaic.ValueIdx
open Cert.ReferenceIdeal Cert.ReferenceIdeal.Read

/-- The left operand of the product is read at the output's row and the contraction coordinate. -/
theorem adj_index (r : Fin 4096) (c : Fin 256) (k : Fin 4096) : lidx_main_v0 (ix2 r c) k = ix2 r k :=
  funext fun a => Fin.ext (by match a with | ⟨0, _⟩ => rfl | ⟨1, _⟩ => rfl)

/-- The right operand of the product is read at the contraction coordinate and the output's column. -/
theorem x_index (r : Fin 4096) (c : Fin 256) (k : Fin 4096) : ridx_main_v0 (ix2 r c) k = ix2 k c :=
  funext fun a => Fin.ext (by match a with | ⟨0, _⟩ => rfl | ⟨1, _⟩ => rfl)

/-- The reference's result, as a function of its three arguments, is the propagation step. -/
theorem result_eq_step (x : (⟨S4096x256, .f32⟩ : BufTy).Contents (Elt Ideal)) (adj : (⟨S4096x4096, .f32⟩ : BufTy).Contents (Elt Ideal))
    (h : (⟨S4096x256, .f32⟩ : BufTy).Contents (Elt Ideal)) :
    val_main_v5 (F := Ideal) x adj h = step x adj h := by
  funext i
  obtain ⟨r, c, rfl⟩ : ∃ (r : Fin 4096) (c : Fin 256), i = ix2 r c := ⟨i 0, i 1, eq_ix2 i⟩
  rw [val_main_v5_apply, val_main_v2_apply, val_main_v4_apply, val_main_v1_apply, val_main_v3_apply, val_main_cst_apply,
    val_main_cst_0_apply, val_main_v0_apply]
  simp only [adj_index, x_index, Ideal.addf_def, Ideal.mulf_def, Ideal.ofBits_def]
  rfl

end Cert.Propagate.Reference

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Payload.lean ====
/-
  What the kernel's body computes from the blocks it loads, at one entry.

  At a grid point the body holds 256 rows of the adjacency (all 4096 columns), the whole feature matrix, and the matching
  256 rows of the residual. It multiplies the rows by the features into a zero accumulator, scales the product by κ,
  scales the residual rows by μ, and adds. At row p and column q of the 256 × 256 block that is

      κ · ( Σ_{k < 4096} rows[p, k] · x[k, q] )  +  μ · res[p, q].
-/
import proofs.«101471_g1228360646954_cont_fleet_178_26_alg».proof.Proof.Gen.KernelIdeal.Skeleton
import proofs.«101471_g1228360646954_cont_fleet_178_26_alg».proof.Proof.LibMatmulPlain
import proofs.«101471_g1228360646954_cont_fleet_178_26_alg».proof.Proof.Spec

noncomputable section

open scoped BigOperators

namespace Cert.Propagate.Kernel

open Idealize.ShloMosaic Idealize.ShloMosaic.ValueIdx
open Cert.KernelIdeal Cert.KernelIdeal.Gen

/-- The body's stored value at row `p`, column `q` of its block. -/
theorem payload_apply (rows : Vec Ideal S256x4096 .f32) (x : Vec Ideal S4096x256 .f32) (res : Vec Ideal S256x256 .f32)
    (p q : Fin 256) :
    k0_pay1 (F := Ideal) rows x res (ix2 p q)
      = keep * (∑ k : Fin 4096, rows (ix2 p k) * x (ix2 k q)) + mix * res (ix2 p q) := by
  have e := Cert.LibMatmulPlain.matmul_plain_zero_apply (M := 256) (K := 4096) (N := 256) (φ₁ := .f32) (φ₂ := .f32)
    dot_S256x4096_S4096x256_S256x256_1_0_0_1_n_n rfl none rows x p q
  unfold k0_pay1
  exact congrArg (fun s => keep * s + mix * res (ix2 p q)) e

end Cert.Propagate.Kernel

end
-- ==== Proof.Stored.lean ====
/-
  What one run of the kernel's body leaves in the output's staging buffer.

  The body makes one store, of the whole 256 × 256 block, so what the buffer reads afterwards is that store's value: the
  body's arithmetic applied to what its three loads read. The adjacency rows and the residual rows are loaded through
  rectangles whose first row the body computes from the grid coordinates (256 rows from that row on, every column); the
  features are loaded whole. Stated for any staging buffers and any contents, at either reading of the floats.
-/
import proofs.«101471_g1228360646954_cont_fleet_178_26_alg».proof.Proof.Gen.KernelIdeal.Frame
import Idealize.ShloMosaic.Lib.Pipeline.Value
import Idealize.ShloMosaic.Lib.Tactic

noncomputable section

namespace Cert.Propagate.Kernel

open Idealize.ShloMosaic Idealize.ShloMosaic.TcCoe Idealize.SL.Sem Idealize.ShloMosaic.Tactic
open Cert.KernelIdeal Cert.KernelIdeal.Gen

variable {F : FTy → Type} [FloatOps F]

/-- The offsets of a whole-buffer rectangle, as the constant zero. -/
theorem zero_offsets : (![0, 0] : Fin 2 → Nat) = fun _ => 0 := funext fun a => by fin_cases a <;> rfl

/-- The staging buffer of the output after the body: the body's value of the loaded adjacency rows, the features, and
    the loaded residual rows. -/
theorem stored_eq (c : Dev nD) (i : grid0.Coords) (arg2 : Memref sig .tc .vmem S512x4096 .f32) (harg2 : arg2.IsWhole)
    (arg3 : Memref sig .tc .vmem S4096x256 .f32) (harg3 : arg3.IsWhole) (arg4 : Memref sig .tc .vmem S4096x256 .f32) (harg4 : arg4.IsWhole)
    (arg5 : Memref sig .tc .vmem S256x256 .f32) (harg5 : arg5.IsWhole)
    (x0 : Vec F S512x4096 .f32) (x1 : Vec F S4096x256 .f32) (x2 : Vec F S4096x256 .f32) :
    out0_A_3 c i arg2 harg2 arg3 harg3 arg4 harg4 arg5 harg5 x0 x1 x2
      = k0_pay1 (View.ld x0 (Rect.unit (s := S512x4096) (k0_off1 i) S256x4096.size (Facts₀.k0_off1_inb i)))
          x1
          (View.ld x2 (Rect.unit (s := S4096x256) (k0_off2 i) S256x256.size (Facts₀.k0_off2_inb i))) := by
  unfold out0_A_3
  rw [View.read_writes_eq_canon _ _ _ (cover0_A_3 c i arg2 harg2 arg3 harg3 arg4 harg4 arg5 harg5 x0 x1 x2)]
  unfold kernelRun0_A
  dsimp only
  try sl_unfold_words
  rw [View.canon_unit_zero zero_offsets]
  simp only [View.readAt_eq_ld, harg2.read_unread, harg3.read_unread, harg4.read_unread,
    View.ld_unit_zero (S := S4096x256) zero_offsets]

end Cert.Propagate.Kernel

end
-- ==== Proof.Blocks.lean ====
/-
  From the kernel's sixteen output blocks to the whole result array.

  The grid is 8 × 2. At point (i, j) the kernel holds rows 512·i … 512·i + 511 of the adjacency, and its body takes from
  them the 256 rows starting at 256·j, that is rows 512·i + 256·j … of the adjacency itself; it takes the same 256 rows of
  the residual, which it holds whole, as it does the features. It writes output block 2·i + j, which is rows
  256·(2·i + j) … of the result: the same rows. So entry (p, q) of what point (i, j) writes back is the propagation step
  at row 256·(2·i + j) + p and column q, each block is a block of the one whole-array step, and since the sixteen blocks
  are the sixteen row bands of the result, the result array ends holding the step.
-/
import proofs.«101471_g1228360646954_cont_fleet_178_26_alg».proof.Proof.Gen.KernelIdeal.Value
import proofs.«101471_g1228360646954_cont_fleet_178_26_alg».proof.Proof.Payload
import proofs.«101471_g1228360646954_cont_fleet_178_26_alg».proof.Proof.Stored
import proofs.«101471_g1228360646954_cont_fleet_178_26_alg».proof.Proof.Spec
import Idealize.ShloMosaic.Lib.Pipeline.Value

noncomputable section

open scoped BigOperators

namespace Cert.Propagate.Kernel

open Idealize.ShloMosaic Idealize.ShloMosaic.TcCoe Idealize.SL.Sem Idealize.ShloMosaic.ValueIdx
open Idealize.ShloMosaic.Pipeline (Dat)
open Cert.KernelIdeal Cert.KernelIdeal.Gen

/-! ## The grid's arithmetic, decided over its sixteen points -/

/-- At every point: the adjacency panel's first row plus the body's row offset into it is the output block's first row;
    so is the body's row offset into the residual; every window's column block is the first; the features and the
    residual are held from their first row; and the output's block number is below sixteen. -/
theorem point_facts : ∀ t : Fin cfg0.N,
    win0_0.index t (0 : Fin 2) * 512 + k0_off1 (grid0.coords t) (0 : Fin 2) = win0_3.index t (0 : Fin 2) * 256
    ∧ win0_0.index t (1 : Fin 2) = 0 ∧ k0_off1 (grid0.coords t) (1 : Fin 2) = 0
    ∧ win0_1.index t (0 : Fin 2) = 0 ∧ win0_1.index t (1 : Fin 2) = 0
    ∧ win0_2.index t (0 : Fin 2) = 0 ∧ win0_2.index t (1 : Fin 2) = 0
    ∧ k0_off2 (grid0.coords t) (0 : Fin 2) = win0_3.index t (0 : Fin 2) * 256 ∧ k0_off2 (grid0.coords t) (1 : Fin 2) = 0
    ∧ win0_3.index t (0 : Fin 2) < 16 ∧ win0_3.index t (1 : Fin 2) = 0 :=
  (by decide +kernel : ∀ t : Fin grid0.N, _)

/-- Every one of the sixteen row bands of the result is some point's output block. -/
theorem every_band : ∀ b : Fin 16, ∃ t : Fin cfg0.N, win0_3.index t = ![b.val, 0] :=
  (by decide +kernel : ∀ b : Fin 16, ∃ t : Fin grid0.N, win0_3.index t = ![b.val, 0])

/-! ## The input blocks, read at an index of the arrays they were fetched from -/

section
variable {F : FTy → Type} [FloatOps F]
variable (m : (ℓ : Loc nD τ sig) → Buf (Elt F) ℓ)

/-- The adjacency panel held at a point, at a place in it, is the adjacency at the place the panel's block puts it. -/
theorem panel_apply (c : Dev nD) (t : Fin cfg0.N) (y : S512x4096.Idx) (k : S4096x4096.Idx)
    (h0 : (k 0).val = win0_0.index t (0 : Fin 2) * 512 + (y 0).val)
    (h1 : (k 1).val = win0_0.index t (1 : Fin 2) * 4096 + (y 1).val) :
    (iblk m c 0 t : Vec F S512x4096 .f32) y = (V m c main_arg1 : S4096x4096.Idx → Elt F .f32) k := by
  unfold iblk
  rw [View.read_apply]
  show V m c main_arg1 _ = V m c main_arg1 _
  congr 1
  funext a
  apply Fin.ext
  match a with
  | ⟨0, _⟩ => show win0_0.index t (0 : Fin 2) * 512 + 1 * (y 0).val = (k 0).val; omega
  | ⟨1, _⟩ => show win0_0.index t (1 : Fin 2) * 4096 + 1 * (y 1).val = (k 1).val; omega

/-- The features held at a point are the features. -/
theorem features_apply (c : Dev nD) (t : Fin cfg0.N) (y : S4096x256.Idx) (k : S4096x256.Idx)
    (h0 : (k 0).val = win0_1.index t (0 : Fin 2) * 4096 + (y 0).val)
    (h1 : (k 1).val = win0_1.index t (1 : Fin 2) * 256 + (y 1).val) :
    (iblk m c 1 t : Vec F S4096x256 .f32) y = (V m c main_arg0 : S4096x256.Idx → Elt F .f32) k := by
  unfold iblk
  rw [View.read_apply]
  show V m c main_arg0 _ = V m c main_arg0 _
  congr 1
  funext a
  apply Fin.ext
  match a with
  | ⟨0, _⟩ => show win0_1.index t (0 : Fin 2) * 4096 + 1 * (y 0).val = (k 0).val; omega
  | ⟨1, _⟩ => show win0_1.index t (1 : Fin 2) * 256 + 1 * (y 1).val = (k 1).val; omega

/-- The residual held at a point is the residual. -/
theorem residual_apply (c : Dev nD) (t : Fin cfg0.N) (y : S4096x256.Idx) (k : S4096x256.Idx)
    (h0 : (k 0).val = win0_2.index t (0 : Fin 2) * 4096 + (y 0).val)
    (h1 : (k 1).val = win0_2.index t (1 : Fin 2) * 256 + (y 1).val) :
    (iblk m c 2 t : Vec F S4096x256 .f32) y = (V m c main_arg2 : S4096x256.Idx → Elt F .f32) k := by
  unfold iblk
  rw [View.read_apply]
  show V m c main_arg2 _ = V m c main_arg2 _
  congr 1
  funext a
  apply Fin.ext
  match a with
  | ⟨0, _⟩ => show win0_2.index t (0 : Fin 2) * 4096 + 1 * (y 0).val = (k 0).val; omega
  | ⟨1, _⟩ => show win0_2.index t (1 : Fin 2) * 256 + 1 * (y 1).val = (k 1).val; omega

end

/-! ## What each point writes back, and the array after the run -/

variable (m : (ℓ : Loc nD τ sig) → Buf (Elt Ideal) ℓ) (ρ : Dev nD → PrngReg)

/-- WHAT POINT `t` WRITES BACK is block `t` of the propagation step of the three argument arrays. -/
theorem flushed_eq (c : Dev nD) (t : Fin cfg0.N) :
    (dats m 0 c).flushed 3 t = ((cfg0.win 3).blk t).view.read (Elt Ideal)
      (step (V m c main_arg0) (V m c main_arg1) (V m c main_arg2)) := by
  rw [Cert.KernelIdeal.Value.flushed3_A, stored_eq]
  obtain ⟨e0, e1, e2, e3, e4, e5, e6, e7, e8, e9, e10⟩ := point_facts t
  funext j
  have hj0 : (j 0).val < 256 := (j 0).isLt
  have hj1 : (j 1).val < 256 := (j 1).isLt
  have hR : win0_3.index t (0 : Fin 2) * 256 + (j 0).val < 4096 := by omega
  -- the entry's place in the block, and in the result
  have hx : (cfg0.win 3).xinj (grid0.coords t) j = ix2 (⟨(j 0).val, hj0⟩ : Fin 256) (⟨(j 1).val, hj1⟩ : Fin 256) :=
    funext fun a => Fin.ext (by match a with | ⟨0, _⟩ => rfl | ⟨1, _⟩ => rfl)
  have hemb : ((cfg0.win 3).blk t).view.emb j
      = ix2 (⟨win0_3.index t (0 : Fin 2) * 256 + (j 0).val, hR⟩ : Fin 4096) (⟨(j 1).val, hj1⟩ : Fin 256) :=
    funext fun a => Fin.ext (by
      match a with
      | ⟨0, _⟩ => show win0_3.index t (0 : Fin 2) * 256 + 1 * (j 0).val = win0_3.index t (0 : Fin 2) * 256 + (j 0).val; omega
      | ⟨1, _⟩ => show win0_3.index t (1 : Fin 2) * 256 + 1 * (j 1).val = (j 1).val; omega)
  show k0_pay1 (F := Ideal) _ _ _ ((cfg0.win 3).xinj (grid0.coords t) j)
    = step (V m c main_arg0) (V m c main_arg1) (V m c main_arg2) (((cfg0.win 3).blk t).view.emb j)
  rw [hx, hemb, step_ix2]
  refine (payload_apply _ _ _ _ _).trans ?_
  unfold entry
  refine congrArg₂ (· + ·) (congrArg (keep * ·) (Finset.sum_congr rfl fun k _ => congrArg₂ (· * ·) ?_ ?_)) (congrArg (mix * ·) ?_)
  · -- the adjacency row: the panel's first row plus the body's offset is the output block's first row
    refine panel_apply m c t _ _ ?_ ?_
    · show win0_3.index t (0 : Fin 2) * 256 + (j 0).val
        = win0_0.index t (0 : Fin 2) * 512 + (k0_off1 (grid0.coords t) (0 : Fin 2) + 1 * (j 0).val)
      omega
    · show k.val = win0_0.index t (1 : Fin 2) * 4096 + (k0_off1 (grid0.coords t) (1 : Fin 2) + 1 * k.val)
      omega
  · -- the features are held whole
    refine features_apply m c t _ _ ?_ ?_
    · show k.val = win0_1.index t (0 : Fin 2) * 4096 + k.val
      omega
    · show (j 1).val = win0_1.index t (1 : Fin 2) * 256 + (j 1).val
      omega
  · -- the residual row: held whole, read at the output block's first row plus the row in the block
    refine residual_apply m c t _ _ ?_ ?_
    · show win0_3.index t (0 : Fin 2) * 256 + (j 0).val
        = win0_2.index t (0 : Fin 2) * 4096 + (k0_off2 (grid0.coords t) (0 : Fin 2) + 1 * (j 0).val)
      omega
    · show (j 1).val = win0_2.index t (1 : Fin 2) * 256 + (k0_off2 (grid0.coords t) (1 : Fin 2) + 1 * (j 1).val)
      omega

/-- An index of the result is in point `t`'s block iff each coordinate is in the block's range on its axis. -/
theorem mem_block (t : Fin cfg0.N) (i : S4096x256.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v0).slice (win0_3.rect t)).set ↔ _
  rw [View.set_slice_whole, Rect.mem_set_unit]
  exact Iff.rfl

/-- Every index of the result is in some point's block: row `r` is in band `r / 256`, and every band is written. -/
theorem covered (i : S4096x256.Idx) :
    ∃ t : Fin cfg0.N, (cfg0.win 3).flush t = true ∧ i ∈ ((cfg0.win 3).blk t).view.set := by
  have hi0 : (i 0).val < 4096 := (i 0).isLt
  have hi1 : (i 1).val < 256 := (i 1).isLt
  obtain ⟨t, ht⟩ := every_band ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 256 ≤ (i 1).val ∧ (i 1).val < win0_3.index t (1 : Fin 2) * 256 + 256
    omega

/-- THE RESULT ARRAY after the run is the propagation step of the three argument arrays. -/
theorem final (c : Dev nD) :
    (dats m 0 c).arrAt 3 cfg0.N = step (V m c main_arg0) (V m c main_arg1) (V m c main_arg2) :=
  (dats m 0 c).arrAt_eq_of_cover 3 (step (V m c main_arg0) (V m c main_arg1) (V m c main_arg2))
    (fun t _ => flushed_eq m c t) covered

/-- The kernel's run, read: every weakly fair execution ends with the result array at the propagation step of the
    arguments as launched, and the arguments unchanged. -/
theorem run : θ_run defs (onTc (τ := τ) (main (F := Ideal))) ⟨m, fun _ => 0, ρ⟩ fun r => ∀ c : Dev nD,
      r.2.mem ((c : Thread nD τ).loc main_v0)
        = step (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Propagate.Kernel

end
-- ==== Proof.lean ====
/-
  One propagation step over a dense graph: a tiled kernel against the whole-array reference, over the extended reals.

  Both programs compute, from node features x (4096 × 256), a dense adjacency adj (4096 × 4096) and a residual h (4096 × 256),

      out[r, c]  =  κ · ( Σ_{k < 4096} adj[r, k] · x[k, c] )  +  μ · h[r, c],

  with κ and μ the binary32 numbers nearest 9/10 and 1/10 — the same two words in both programs, in the same factor of
  each product. The reference forms adj · x as one matrix product and scales and adds whole arrays. The kernel walks an
  8 × 2 grid: at point (i, j) it holds rows 512·i … of the adjacency, multiplies the 256 of them starting at 256·j by the
  whole feature matrix into a zero accumulator, scales, adds the scaled matching 256 rows of the residual, and writes the
  256 × 256 block to row band 2·i + j of the result.

  Nothing separates the two but the tiling: entry (p, q) of the block written at (i, j) is the formula above at row
  512·i + 256·j + p = 256·(2·i + j) + p, and the sixteen bands are all of the result. Read as extended reals, a product
  accumulated from zero is the plain sum, so each entry is the same expression on both sides; no distributive or
  cancellation law is used, and the inputs' finiteness is never needed.

  Proof/Spec.lean states the step; Proof/RefSide.lean reads the reference's result at an entry; Proof/Payload.lean reads
  the kernel body's value at an entry (the product by Proof/LibMatmulPlain.lean); Proof/Stored.lean says what one run of
  the body leaves in the output's buffer; Proof/Blocks.lean places each block in the result and covers it. Each program's
  termination, absence of faults and unchanged arguments come from the generated modules imported below, and the kernel
  needed no rewriting to be read over the extended reals, so that conjunct is trivial.
-/
import proofs.«101471_g1228360646954_cont_fleet_178_26_alg».proof.Defs
import proofs.«101471_g1228360646954_cont_fleet_178_26_alg».proof.Proof.Gen.Kernel
import proofs.«101471_g1228360646954_cont_fleet_178_26_alg».proof.Proof.Gen.Kernel.Skeleton
import proofs.«101471_g1228360646954_cont_fleet_178_26_alg».proof.Proof.Gen.Kernel.Launch
import proofs.«101471_g1228360646954_cont_fleet_178_26_alg».proof.Proof.Gen.Kernel.Points
import proofs.«101471_g1228360646954_cont_fleet_178_26_alg».proof.Proof.Gen.Kernel.Frame
import proofs.«101471_g1228360646954_cont_fleet_178_26_alg».proof.Proof.Gen.KernelIdeal
import proofs.«101471_g1228360646954_cont_fleet_178_26_alg».proof.Proof.Gen.KernelIdeal.Skeleton
import proofs.«101471_g1228360646954_cont_fleet_178_26_alg».proof.Proof.Gen.KernelIdeal.Launch
import proofs.«101471_g1228360646954_cont_fleet_178_26_alg».proof.Proof.Gen.KernelIdeal.Points
import proofs.«101471_g1228360646954_cont_fleet_178_26_alg».proof.Proof.Gen.KernelIdeal.Frame
import proofs.«101471_g1228360646954_cont_fleet_178_26_alg».proof.Proof.Gen.ReferenceIdeal
import proofs.«101471_g1228360646954_cont_fleet_178_26_alg».proof.Proof.Gen.Pre_finite_inputs
import proofs.«101471_g1228360646954_cont_fleet_178_26_alg».proof.Proof.Gen.KernelIdeal.Value
import proofs.«101471_g1228360646954_cont_fleet_178_26_alg».proof.Proof.Gen.ReferenceIdeal.Run
import proofs.«101471_g1228360646954_cont_fleet_178_26_alg».proof.Proof.Gen.ReferenceIdeal.Read
import proofs.«101471_g1228360646954_cont_fleet_178_26_alg».proof.Proof.RefSide
import proofs.«101471_g1228360646954_cont_fleet_178_26_alg».proof.Proof.Blocks
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the propagation step of its arguments, block by block,
    and the reference's at the same step of arguments that agree with them: entry by entry
    κ · Σ_k adj[r, k] · x[k, c] + μ · h[r, c] on both sides. -/
theorem algebraic : Cert.algebraic_KernelIdeal_ReferenceIdeal := by
  intro m ρ m' ρ' _ hagree
  refine ⟨_, Cert.Propagate.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.Propagate.Reference.result_eq_step _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
